-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S2048x2048 .f32) (main_arg13 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S2048x256 : Shape := ⟨2, ![2048, 256]⟩
abbrev S1x256 : Shape := ⟨2, ![1, 256]⟩
abbrev S512x256 : Shape := ⟨2, ![512, 256]⟩

abbrev nBuf : Space → Nat
  | .hbm => 34
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S8192x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg0 : BitVec 32 := BitVec.ofNat 32 (i 0).val
  let c256_i32 : BitVec 32 := 256#32
  let v53 : BitVec 32 := Scalar.muli arg0 c256_i32
  v53
def k0_off1 (i : grid0.Coords) : Fin 2 → Nat :=
  let c0_32 : Index := 0#32
  let arg0 : BitVec 32 := BitVec.ofNat 32 (i 0).val
  let c256_i32 : BitVec 32 := 256#32
  let v53 : BitVec 32 := Scalar.muli arg0 c256_i32
  let v54 : BitVec 32 := v53
  let v55 : Index := Scalar.indexCast v54
  ![0, v55.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  h_S512x256 : 0 < S512x256.numel
  inb_S512x256_S512x256_0_0 : ∀ a, (![0, 0] : Fin 2 → Nat) a + S512x256.size a ≤ S512x256.size a
  dot_S512x2048_S2048x256_S512x256_1_0_0_1_n_n_wf : DotDims.WF S512x2048 S2048x256 S512x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S512x256.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .bf16 = 32 ∨ (Rect.block (s := S2048x2048) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S8192x2048.size a
  hwx0_14 : ∀ i : grid0.Coords, EltTy.bits .f32 = 32 ∨ (Rect.block (s := S8192x2048) S512x256.size (cc0_transform_14 i) (hinb0_14 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19) S512x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S6144x2048 : Shape := ⟨2, ![6144, 2048]⟩
abbrev S6144 : Shape := ⟨1, ![6144]⟩
abbrev S2048x6144 : Shape := ⟨2, ![2048, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S6144x2048, .f32⟩
  | .hbm, ⟨15, _⟩ => ⟨S6144, .f32⟩
  | .hbm, ⟨16, _⟩ => ⟨S6144x2048, .f32⟩
  | .hbm, ⟨17, _⟩ => ⟨S6144, .f32⟩
  | .hbm, ⟨18, _⟩ => ⟨S2048x6144, .f32⟩
  | .hbm, ⟨19, _⟩ => ⟨S8192x6144, .f32⟩
  | .hbm, ⟨20, _⟩ => ⟨S1x6144, .f32⟩
  | .hbm, ⟨21, _⟩ => ⟨S8192x6144, .f32⟩
  | .hbm, ⟨22, _⟩ => ⟨S8192x6144, .f32⟩
  | .hbm, ⟨23, _⟩ => ⟨S2048x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S2048x2048_S2048x2048_S2048x2048_S6144x2048_d0 : Shape.Concatenates [S2048x2048, S2048x2048, S2048x2048] S6144x2048 0
  concatenates_S2048_S2048_S2048_S6144_d0 : Shape.Concatenates [S2048, S2048, S2048] S6144 0
  transposes_S6144x2048_S2048x6144_1_0 : S6144x2048.Transposes [1, 0] S2048x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.GruSpec.lean ====
/-
  The gated recurrent cell as one function of the argument arrays, entry by entry.

  For a batch row `p` and a hidden column `c`, a dense layer is
      lin u w b = (∑ k, u k · w k) + b
  of row `p` of the input, row `c` of the weight (the weight is stored one row per output column, so the
  contraction runs along the weight's second axis) and entry `c` of the bias.  With
      r = σ(lin x W_ir b_ir + lin h W_hr b_hr),   z = σ(lin x W_iz b_iz + lin h W_hz b_hz),
      n = tanh(lin x W_in b_in + r · lin h W_hn b_hn),        σ v = 1 / (1 + e^(−v)),
  the new hidden state is  (1 − z) · n + z · h[p, c].

  Also here, because they mention no program: a plain matrix product into a zero accumulator read at an
  entry, a dense layer on blocks in the spelling a kernel body uses, and the host's expansion of σ.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Gru

open Idealize.ShloMosaic Idealize.ShloMosaic.ValueIdx

/-! ## The cell on one entry -/

/-- The word of `1.0`, kept as a word: both programs subtract the update gate from this same literal. -/
abbrev one : EReal := Ideal.ofBits .f32 0x3F800000#32

/-- One dense-layer entry: a row of the input against a row of the weight, plus the bias entry. -/
def lin {K : Nat} (u w : Fin K → EReal) (b : EReal) : EReal := (∑ k : Fin K, u k * w k) + b

/-- The gates and the blend, from the six dense-layer entries and the old hidden entry. -/
def blend (gir giz gin ghr ghz ghn hpc : EReal) : EReal :=
  (one - Ideal.logistic (giz + ghz)) * Ideal.tanh (gin + Ideal.logistic (gir + ghr) * ghn)
    + Ideal.logistic (giz + ghz) * hpc

abbrev SX : Shape := ⟨2, ![8192, 2048]⟩
abbrev SW : Shape := ⟨2, ![2048, 2048]⟩
abbrev SB : Shape := ⟨1, ![2048]⟩

/-- The new hidden state at batch row `p`, hidden column `c`, from the fourteen arrays in the programs' argument order. -/
def gruAt (x h : SX.Idx → EReal) (wir : SW.Idx → EReal) (bir : SB.Idx → EReal) (whr : SW.Idx → EReal) (bhr : SB.Idx → EReal)
    (wiz : SW.Idx → EReal) (biz : SB.Idx → EReal) (whz : SW.Idx → EReal) (bhz : SB.Idx → EReal)
    (win : SW.Idx → EReal) (bin : SB.Idx → EReal) (whn : SW.Idx → EReal) (bhn : SB.Idx → EReal)
    (p : Fin 8192) (c : Fin 2048) : EReal :=
  blend (lin (fun k : Fin 2048 => x (ix2 p k)) (fun k => wir (ix2 c k)) (bir (ix1 c)))
        (lin (fun k : Fin 2048 => x (ix2 p k)) (fun k => wiz (ix2 c k)) (biz (ix1 c)))
        (lin (fun k : Fin 2048 => x (ix2 p k)) (fun k => win (ix2 c k)) (bin (ix1 c)))
        (lin (fun k : Fin 2048 => h (ix2 p k)) (fun k => whr (ix2 c k)) (bhr (ix1 c)))
        (lin (fun k : Fin 2048 => h (ix2 p k)) (fun k => whz (ix2 c k)) (bhz (ix1 c)))
        (lin (fun k : Fin 2048 => h (ix2 p k)) (fun k => whn (ix2 c k)) (bhn (ix1 c)))
        (h (ix2 p c))

/-- The whole result array. -/
def G (x h : SX.Idx → EReal) (wir : SW.Idx → EReal) (bir : SB.Idx → EReal) (whr : SW.Idx → EReal) (bhr : SB.Idx → EReal)
    (wiz : SW.Idx → EReal) (biz : SB.Idx → EReal) (whz : SW.Idx → EReal) (bhz : SB.Idx → EReal)
    (win : SW.Idx → EReal) (bin : SB.Idx → EReal) (whn : SW.Idx → EReal) (bhn : SB.Idx → EReal) : SX.Idx → EReal :=
  fun i => gruAt x h wir bir whr bhr wiz biz whz bhz win bin whn bhn (i 0) (i 1)

theorem G_ix2 (x h : SX.Idx → EReal) (wir : SW.Idx → EReal) (bir : SB.Idx → EReal) (whr : SW.Idx → EReal) (bhr : SB.Idx → EReal)
    (wiz : SW.Idx → EReal) (biz : SB.Idx → EReal) (whz : SW.Idx → EReal) (bhz : SB.Idx → EReal)
    (win : SW.Idx → EReal) (bin : SB.Idx → EReal) (whn : SW.Idx → EReal) (bhn : SB.Idx → EReal) (p : Fin 8192) (c : Fin 2048) :
    G x h wir bir whr bhr wiz biz whz bhz win bin whn bhn (ix2 p c)
      = gruAt x h wir bir whr bhr wiz biz whz bhz win bin whn bhn p c := rfl

/-! ## σ in the host's spelling -/

/-- The word `0x3F800000` is the number one. -/
theorem one_eq : one = 1 := by
  simp [one, Ideal.ofBits, Ideal.ieee, -EReal.coe_mul]; norm_num

/-- `1 / (1 + e^(−v))` written with the literal `1.0` twice, a negation, an exponential, a sum and a quotient,
    is the logistic function on every extended real — the infinities included, where both are the limits `0` and `1`. -/
theorem sigmoid_expanded (v : EReal) : Ideal.div one (one + Ideal.exp (-v)) = Ideal.logistic v := by
  rw [one_eq]; rfl

/-! ## A plain matrix product into a zero accumulator, at an entry -/

/-- An `R×K` by `K×N` product accumulated into zeros reads, at `(a, b)`, the sum over the contracted coordinate of the
    products of the entries. -/
theorem matmul_plain_zero_apply {R K N : Nat} {φ₁ φ₂ : FTy} (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A dense layer on blocks, in a kernel body's spelling — the weight block cast to its own shape, the product into a
    zero accumulator, the one-row bias cast to its own shape and broadcast down the rows, the sum — read at `(p, q)`. -/
theorem dense_block_apply {R K N : Nat} {φ₁ φ₂ : FTy} (d : DotDims ⟨2, ![R, K]⟩ ⟨2, ![K, N]⟩ ⟨2, ![R, N]⟩)
    (hd : d = DotDims.plain R K N) (prec : Option ContractPrecision)
    (u : FVec Ideal ⟨2, ![R, K]⟩ φ₁) (w : FVec Ideal ⟨2, ![K, N]⟩ φ₂) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbb : (⟨2, ![1, N]⟩ : Shape).Broadcasts ⟨2, ![R, N]⟩) (p : Fin R) (q : Fin N) :
    addf (matmul d prec u (shapeCast ⟨2, ![K, N]⟩ w hw) (constant ⟨2, ![R, N]⟩ .f32 0x00000000#32))
        (broadcastTo ⟨2, ![R, N]⟩ (shapeCast ⟨2, ![1, N]⟩ b hb) hbb) (ix2 p q)
      = lin (fun k : Fin K => u (ix2 p k)) (fun k => w (ix2 k q)) (b (ix2 (0 : Fin 1) q)) := by
  subst hd
  rw [shapeCast_self, shapeCast_self]
  show matmul (DotDims.plain R K N) prec u w _ (ix2 p q) + broadcastTo ⟨2, ![R, N]⟩ b hbb (ix2 p q) = _
  rw [matmul_plain_zero_apply, broadcastTo_1b_ab_apply]
  rfl

end Cert.Gru

end
-- ==== Proof.CellBlock.lean ====
/-
  One grid point of the fused cell.

  The body stores once, through the whole output block.  What it stores is the blend of the gates computed from
  the point's fourteen input blocks — a block of 512 batch rows of `x` and of `h` (all 2048 columns), 256
  columns of each transposed weight (all 2048 rows), the matching 256 entries of each bias — and from the same
  256 columns of the `h` block read a second time through a column window.  Entry `(p, q)` of the stored block
  therefore depends on row `p` of the two row blocks, column `q` of the six weight blocks, entry `q` of the six
  bias blocks and entry `(p, q)` of the re-read columns: it is `blend` of six `lin`s.
-/
import proofs.«135165_j64793876628224_2_alg».proof.Proof.Gen.KernelIdeal.Frame
import proofs.«135165_j64793876628224_2_alg».proof.Proof.GruSpec
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Cell

open Cert.KernelIdeal Cert.KernelIdeal.Gen Cert.Gru

theorem hz : (![0, 0] : Fin 2 → Nat) = fun _ => 0 := funext fun a => by fin_cases a <;> rfl

/-! ## What the body leaves in the output block -/

section AnyInstance
variable {F : FTy → Type} [FloatOps F]

/-- The output's staging buffer after the body: the one covering store's payload, its loads reading the whole input
    buffers, and the `h` buffer once more through the window of 256 columns starting at the point's column offset. -/
theorem out_A (c : Dev nD) (i : grid0.Coords) (a2 : Memref sig .tc .vmem S512x2048 .bf16) (h2 : a2.IsWhole) (a3 : Memref sig .tc .vmem S512x2048 .f32) (h3 : a3.IsWhole) (a4 : Memref sig .tc .vmem S2048x256 .bf16) (h4 : a4.IsWhole) (a5 : Memref sig .tc .vmem S2048x256 .bf16) (h5 : a5.IsWhole) (a6 : Memref sig .tc .vmem S2048x256 .bf16) (h6 : a6.IsWhole) (a7 : Memref sig .tc .vmem S2048x256 .bf16) (h7 : a7.IsWhole) (a8 : Memref sig .tc .vmem S2048x256 .bf16) (h8 : a8.IsWhole) (a9 : Memref sig .tc .vmem S2048x256 .bf16) (h9 : a9.IsWhole) (a10 : Memref sig .tc .vmem S1x256 .f32) (h10 : a10.IsWhole) (a11 : Memref sig .tc .vmem S1x256 .f32) (h11 : a11.IsWhole) (a12 : Memref sig .tc .vmem S1x256 .f32) (h12 : a12.IsWhole) (a13 : Memref sig .tc .vmem S1x256 .f32) (h13 : a13.IsWhole) (a14 : Memref sig .tc .vmem S1x256 .f32) (h14 : a14.IsWhole) (a15 : Memref sig .tc .vmem S1x256 .f32) (h15 : a15.IsWhole) (a16 : Memref sig .tc .vmem S512x256 .f32) (h16 : a16.IsWhole)
    (x0 : Vec F S512x2048 .bf16) (x1 : Vec F S512x2048 .f32) (x2 : Vec F S2048x256 .bf16) (x3 : Vec F S2048x256 .bf16) (x4 : Vec F S2048x256 .bf16) (x5 : Vec F S2048x256 .bf16) (x6 : Vec F S2048x256 .bf16) (x7 : Vec F S2048x256 .bf16) (x8 : Vec F S1x256 .f32) (x9 : Vec F S1x256 .f32) (x10 : Vec F S1x256 .f32) (x11 : Vec F S1x256 .f32) (x12 : Vec F S1x256 .f32) (x13 : Vec F S1x256 .f32) :
    out0_A_14 c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13
      = k0_pay1 (k0_pay3 x1) (k0_pay4 x0 x2 x8) (k0_pay5 x0 x3 x9) (k0_pay6 x0 x4 x10) (k0_pay7 x1 x5 x11) x6 x12 x7 x13
          (View.ld x1 (Rect.unit (s := S512x2048) (k0_off1 i) S512x256.size (k0_off1_inb i))) := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
    View.ld_unit_zero (S := S512x2048) hz, View.ld_unit_zero (S := S2048x256) hz, View.ld_unit_zero (S := S1x256) hz]

end AnyInstance

/-! ## The payload at an entry, on the extended reals -/

/-- The body's contraction record is the plain `512×2048` by `2048×256` product. -/
theorem dot_plain : dot_S512x2048_S2048x256_S512x256_1_0_0_1_n_n = DotDims.plain 512 2048 256 := rfl

/-- Casting the `x` block to its own shape changes nothing. -/
theorem pay2_eq (x0 : Vec Ideal S512x2048 .bf16) : k0_pay2 x0 = x0 := shapeCast_self _ _

/-- Narrowing the `h` block's float format is the identity on the extended reals. -/
theorem pay3_eq (x1 : Vec Ideal S512x2048 .f32) : (k0_pay3 x1 : S512x2048.Idx → EReal) = x1 := rfl

/-- A dense layer of the body on blocks `u`, `w`, `b`, at `(p, q)`. -/
theorem dense_at (u : FVec Ideal S512x2048 .bf16) (w : FVec Ideal S2048x256 .bf16) (b : FVec Ideal S1x256 .f32) (p : Fin 512) (q : Fin 256) :
    addf (matmul dot_S512x2048_S2048x256_S512x256_1_0_0_1_n_n none u (shapeCast S2048x256 w shapeCasts_S2048x256_S2048x256) (constant S512x256 .f32 0x00000000#32))
        (broadcastTo S512x256 (shapeCast S1x256 b shapeCasts_S1x256_S1x256) broadcasts_S1x256_S512x256) (ix2 p q)
      = lin (fun k : Fin 2048 => u (ix2 p k)) (fun k => w (ix2 k q)) (b (ix2 (0 : Fin 1) q)) :=
  dense_block_apply dot_S512x2048_S2048x256_S512x256_1_0_0_1_n_n dot_plain none u w b _ _ _ p q

theorem pay4_at (x0 : Vec Ideal S512x2048 .bf16) (w : Vec Ideal S2048x256 .bf16) (b : Vec Ideal S1x256 .f32) (p : Fin 512) (q : Fin 256) :
    k0_pay4 x0 w b (ix2 p q) = lin (fun k : Fin 2048 => x0 (ix2 p k)) (fun k => w (ix2 k q)) (b (ix2 (0 : Fin 1) q)) := by
  refine (dense_at (k0_pay2 x0) w b p q).trans ?_
  rw [pay2_eq]

theorem pay5_at (x0 : Vec Ideal S512x2048 .bf16) (w : Vec Ideal S2048x256 .bf16) (b : Vec Ideal S1x256 .f32) (p : Fin 512) (q : Fin 256) :
    k0_pay5 x0 w b (ix2 p q) = lin (fun k : Fin 2048 => x0 (ix2 p k)) (fun k => w (ix2 k q)) (b (ix2 (0 : Fin 1) q)) := by
  refine (dense_at (k0_pay2 x0) w b p q).trans ?_
  rw [pay2_eq]

theorem pay6_at (x0 : Vec Ideal S512x2048 .bf16) (w : Vec Ideal S2048x256 .bf16) (b : Vec Ideal S1x256 .f32) (p : Fin 512) (q : Fin 256) :
    k0_pay6 x0 w b (ix2 p q) = lin (fun k : Fin 2048 => x0 (ix2 p k)) (fun k => w (ix2 k q)) (b (ix2 (0 : Fin 1) q)) := by
  refine (dense_at (k0_pay2 x0) w b p q).trans ?_
  rw [pay2_eq]

/-- The same with the `h` block as left operand: it enters the product narrowed, which changes no entry. -/
theorem dense_h_at (x1 : Vec Ideal S512x2048 .f32) (w : FVec Ideal S2048x256 .bf16) (b : FVec Ideal S1x256 .f32) (p : Fin 512) (q : Fin 256) :
    addf (matmul dot_S512x2048_S2048x256_S512x256_1_0_0_1_n_n none (k0_pay3 x1) (shapeCast S2048x256 w shapeCasts_S2048x256_S2048x256) (constant S512x256 .f32 0x00000000#32))
        (broadcastTo S512x256 (shapeCast S1x256 b shapeCasts_S1x256_S1x256) broadcasts_S1x256_S512x256) (ix2 p q)
      = lin (fun k : Fin 2048 => x1 (ix2 p k)) (fun k => w (ix2 k q)) (b (ix2 (0 : Fin 1) q)) :=
  dense_at (k0_pay3 x1) w b p q

theorem pay7_at (x1 : Vec Ideal S512x2048 .f32) (w : Vec Ideal S2048x256 .bf16) (b : Vec Ideal S1x256 .f32) (p : Fin 512) (q : Fin 256) :
    k0_pay7 x1 w b (ix2 p q) = lin (fun k : Fin 2048 => x1 (ix2 p k)) (fun k => w (ix2 k q)) (b (ix2 (0 : Fin 1) q)) :=
  dense_at (k0_pay3 x1) w b p q

/-- The stored block at `(p, q)`: the blend of the six dense-layer entries and the re-read `h` entry. -/
theorem pay1_at (x0 : Vec Ideal S512x2048 .bf16) (x1 : Vec Ideal S512x2048 .f32) (x2 x3 x4 x5 x6 x7 : Vec Ideal S2048x256 .bf16) (x8 x9 x10 x11 x12 x13 : Vec Ideal S1x256 .f32) (hs : Vec Ideal S512x256 .f32) (p : Fin 512) (q : Fin 256) :
    k0_pay1 (k0_pay3 x1) (k0_pay4 x0 x2 x8) (k0_pay5 x0 x3 x9) (k0_pay6 x0 x4 x10) (k0_pay7 x1 x5 x11) x6 x12 x7 x13 hs (ix2 p q)
      = blend (lin (fun k : Fin 2048 => x0 (ix2 p k)) (fun k => x2 (ix2 k q)) (x8 (ix2 (0 : Fin 1) q)))
              (lin (fun k : Fin 2048 => x0 (ix2 p k)) (fun k => x3 (ix2 k q)) (x9 (ix2 (0 : Fin 1) q)))
              (lin (fun k : Fin 2048 => x0 (ix2 p k)) (fun k => x4 (ix2 k q)) (x10 (ix2 (0 : Fin 1) q)))
              (lin (fun k : Fin 2048 => x1 (ix2 p k)) (fun k => x5 (ix2 k q)) (x11 (ix2 (0 : Fin 1) q)))
              (lin (fun k : Fin 2048 => x1 (ix2 p k)) (fun k => x6 (ix2 k q)) (x12 (ix2 (0 : Fin 1) q)))
              (lin (fun k : Fin 2048 => x1 (ix2 p k)) (fun k => x7 (ix2 k q)) (x13 (ix2 (0 : Fin 1) q)))
              (hs (ix2 p q)) := by
  rw [← pay4_at x0 x2 x8 p q, ← pay5_at x0 x3 x9 p q, ← pay6_at x0 x4 x10 p q, ← pay7_at x1 x5 x11 p q,
    ← dense_h_at x1 x6 x12 p q, ← dense_h_at x1 x7 x13 p q]
  rfl

end Cert.KernelIdeal.Cell

end
-- ==== Proof.Staged.lean ====
/-
  The arrays the region stages, in terms of the arguments.

  Before the region the host narrows `x` to a shorter float format (the identity on the extended reals), transposes
  each weight and narrows it, and gives each bias a leading unit axis.  So, entry by entry: the staged `x` is `x`;
  a staged weight at `(k, c)` is the weight at `(c, k)`; a staged bias at `(0, c)` is the bias at `c`.
-/
import proofs.«135165_j64793876628224_2_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.Staged

open Cert.KernelIdeal Cert.KernelIdeal.Gen

variable (m : (ℓ : Loc nD τ sig) → Buf (Elt Ideal) ℓ)

/-- The staged `x` is `x`: the change of float format is the identity. -/
theorem x_eq (c : Dev nD) : (V m c main_v0 : S8192x2048.Idx → EReal) = m ((c : Thread nD τ).loc main_arg0) := by
  dsimp only [Gen.V, Gen.hostOps0]
  after_results
  rfl

theorem x_at (c : Dev nD) (i : S8192x2048.Idx) : (V m c main_v0 : S8192x2048.Idx → EReal) i = (m ((c : Thread nD τ).loc main_arg0) : S8192x2048.Idx → EReal) i :=
  congrFun (x_eq m c) i

/-- `h` is staged as it is. -/
theorem h_at (c : Dev nD) (i : S8192x2048.Idx) : (V m c main_arg1 : S8192x2048.Idx → EReal) i = (m ((c : Thread nD τ).loc main_arg1) : S8192x2048.Idx → EReal) i :=
  congrFun (V_main_arg1 m c) i

/-- Staged weight `main_v2` at `(k, c)` is argument `main_arg2` at `(c, k)`. -/
theorem main_v2_eq (c : Dev nD) : (V m c main_v2 : S2048x2048.Idx → EReal)
    = transpose S2048x2048 [1, 0] (m ((c : Thread nD τ).loc main_arg2)) transposes_S2048x2048_S2048x2048_1_0 := by
  dsimp only [Gen.V, Gen.hostOps0]
  after_results
  rfl

theorem main_v2_at (c : Dev nD) (k cc : Fin 2048) :
    (V m c main_v2 : S2048x2048.Idx → EReal) (ix2 k cc) = (m ((c : Thread nD τ).loc main_arg2) : S2048x2048.Idx → EReal) (ix2 cc k) := by
  rw [main_v2_eq]
  exact transpose_ix2_apply _ _ k cc

/-- Staged weight `main_v4` at `(k, c)` is argument `main_arg6` at `(c, k)`. -/
theorem main_v4_eq (c : Dev nD) : (V m c main_v4 : S2048x2048.Idx → EReal)
    = transpose S2048x2048 [1, 0] (m ((c : Thread nD τ).loc main_arg6)) transposes_S2048x2048_S2048x2048_1_0 := by
  dsimp only [Gen.V, Gen.hostOps0]
  after_results
  rfl

theorem main_v4_at (c : Dev nD) (k cc : Fin 2048) :
    (V m c main_v4 : S2048x2048.Idx → EReal) (ix2 k cc) = (m ((c : Thread nD τ).loc main_arg6) : S2048x2048.Idx → EReal) (ix2 cc k) := by
  rw [main_v4_eq]
  exact transpose_ix2_apply _ _ k cc

/-- Staged weight `main_v6` at `(k, c)` is argument `main_arg10` at `(c, k)`. -/
theorem main_v6_eq (c : Dev nD) : (V m c main_v6 : S2048x2048.Idx → EReal)
    = transpose S2048x2048 [1, 0] (m ((c : Thread nD τ).loc main_arg10)) transposes_S2048x2048_S2048x2048_1_0 := by
  dsimp only [Gen.V, Gen.hostOps0]
  after_results
  rfl

theorem main_v6_at (c : Dev nD) (k cc : Fin 2048) :
    (V m c main_v6 : S2048x2048.Idx → EReal) (ix2 k cc) = (m ((c : Thread nD τ).loc main_arg10) : S2048x2048.Idx → EReal) (ix2 cc k) := by
  rw [main_v6_eq]
  exact transpose_ix2_apply _ _ k cc

/-- Staged weight `main_v8` at `(k, c)` is argument `main_arg4` at `(c, k)`. -/
theorem main_v8_eq (c : Dev nD) : (V m c main_v8 : S2048x2048.Idx → EReal)
    = transpose S2048x2048 [1, 0] (m ((c : Thread nD τ).loc main_arg4)) transposes_S2048x2048_S2048x2048_1_0 := by
  dsimp only [Gen.V, Gen.hostOps0]
  after_results
  rfl

theorem main_v8_at (c : Dev nD) (k cc : Fin 2048) :
    (V m c main_v8 : S2048x2048.Idx → EReal) (ix2 k cc) = (m ((c : Thread nD τ).loc main_arg4) : S2048x2048.Idx → EReal) (ix2 cc k) := by
  rw [main_v8_eq]
  exact transpose_ix2_apply _ _ k cc

/-- Staged weight `main_v10` at `(k, c)` is argument `main_arg8` at `(c, k)`. -/
theorem main_v10_eq (c : Dev nD) : (V m c main_v10 : S2048x2048.Idx → EReal)
    = transpose S2048x2048 [1, 0] (m ((c : Thread nD τ).loc main_arg8)) transposes_S2048x2048_S2048x2048_1_0 := by
  dsimp only [Gen.V, Gen.hostOps0]
  after_results
  rfl

theorem main_v10_at (c : Dev nD) (k cc : Fin 2048) :
    (V m c main_v10 : S2048x2048.Idx → EReal) (ix2 k cc) = (m ((c : Thread nD τ).loc main_arg8) : S2048x2048.Idx → EReal) (ix2 cc k) := by
  rw [main_v10_eq]
  exact transpose_ix2_apply _ _ k cc

/-- Staged weight `main_v12` at `(k, c)` is argument `main_arg12` at `(c, k)`. -/
theorem main_v12_eq (c : Dev nD) : (V m c main_v12 : S2048x2048.Idx → EReal)
    = transpose S2048x2048 [1, 0] (m ((c : Thread nD τ).loc main_arg12)) transposes_S2048x2048_S2048x2048_1_0 := by
  dsimp only [Gen.V, Gen.hostOps0]
  after_results
  rfl

theorem main_v12_at (c : Dev nD) (k cc : Fin 2048) :
    (V m c main_v12 : S2048x2048.Idx → EReal) (ix2 k cc) = (m ((c : Thread nD τ).loc main_arg12) : S2048x2048.Idx → EReal) (ix2 cc k) := by
  rw [main_v12_eq]
  exact transpose_ix2_apply _ _ k cc

/-- Staged bias `main_v13` at `(0, c)` is argument `main_arg3` at `c`. -/
theorem main_v13_eq (c : Dev nD) : (V m c main_v13 : S1x2048.Idx → EReal)
    = shapeCast S1x2048 (m ((c : Thread nD τ).loc main_arg3)) shapeCasts_S2048_S1x2048 := by
  dsimp only [Gen.V, Gen.hostOps0]
  after_results
  rfl

theorem main_v13_at (c : Dev nD) (u : Fin 1) (cc : Fin 2048) :
    (V m c main_v13 : S1x2048.Idx → EReal) (ix2 u cc) = (m ((c : Thread nD τ).loc main_arg3) : S2048.Idx → EReal) (ix1 cc) := by
  rw [main_v13_eq]
  exact shapeCast_a_1a_apply _ _ u cc

/-- Staged bias `main_v14` at `(0, c)` is argument `main_arg7` at `c`. -/
theorem main_v14_eq (c : Dev nD) : (V m c main_v14 : S1x2048.Idx → EReal)
    = shapeCast S1x2048 (m ((c : Thread nD τ).loc main_arg7)) shapeCasts_S2048_S1x2048 := by
  dsimp only [Gen.V, Gen.hostOps0]
  after_results
  rfl

theorem main_v14_at (c : Dev nD) (u : Fin 1) (cc : Fin 2048) :
    (V m c main_v14 : S1x2048.Idx → EReal) (ix2 u cc) = (m ((c : Thread nD τ).loc main_arg7) : S2048.Idx → EReal) (ix1 cc) := by
  rw [main_v14_eq]
  exact shapeCast_a_1a_apply _ _ u cc

/-- Staged bias `main_v15` at `(0, c)` is argument `main_arg11` at `c`. -/
theorem main_v15_eq (c : Dev nD) : (V m c main_v15 : S1x2048.Idx → EReal)
    = shapeCast S1x2048 (m ((c : Thread nD τ).loc main_arg11)) shapeCasts_S2048_S1x2048 := by
  dsimp only [Gen.V, Gen.hostOps0]
  after_results
  rfl

theorem main_v15_at (c : Dev nD) (u : Fin 1) (cc : Fin 2048) :
    (V m c main_v15 : S1x2048.Idx → EReal) (ix2 u cc) = (m ((c : Thread nD τ).loc main_arg11) : S2048.Idx → EReal) (ix1 cc) := by
  rw [main_v15_eq]
  exact shapeCast_a_1a_apply _ _ u cc

/-- Staged bias `main_v16` at `(0, c)` is argument `main_arg5` at `c`. -/
theorem main_v16_eq (c : Dev nD) : (V m c main_v16 : S1x2048.Idx → EReal)
    = shapeCast S1x2048 (m ((c : Thread nD τ).loc main_arg5)) shapeCasts_S2048_S1x2048 := by
  dsimp only [Gen.V, Gen.hostOps0]
  after_results
  rfl

theorem main_v16_at (c : Dev nD) (u : Fin 1) (cc : Fin 2048) :
    (V m c main_v16 : S1x2048.Idx → EReal) (ix2 u cc) = (m ((c : Thread nD τ).loc main_arg5) : S2048.Idx → EReal) (ix1 cc) := by
  rw [main_v16_eq]
  exact shapeCast_a_1a_apply _ _ u cc

/-- Staged bias `main_v17` at `(0, c)` is argument `main_arg9` at `c`. -/
theorem main_v17_eq (c : Dev nD) : (V m c main_v17 : S1x2048.Idx → EReal)
    = shapeCast S1x2048 (m ((c : Thread nD τ).loc main_arg9)) shapeCasts_S2048_S1x2048 := by
  dsimp only [Gen.V, Gen.hostOps0]
  after_results
  rfl

theorem main_v17_at (c : Dev nD) (u : Fin 1) (cc : Fin 2048) :
    (V m c main_v17 : S1x2048.Idx → EReal) (ix2 u cc) = (m ((c : Thread nD τ).loc main_arg9) : S2048.Idx → EReal) (ix1 cc) := by
  rw [main_v17_eq]
  exact shapeCast_a_1a_apply _ _ u cc

/-- Staged bias `main_v18` at `(0, c)` is argument `main_arg13` at `c`. -/
theorem main_v18_eq (c : Dev nD) : (V m c main_v18 : S1x2048.Idx → EReal)
    = shapeCast S1x2048 (m ((c : Thread nD τ).loc main_arg13)) shapeCasts_S2048_S1x2048 := by
  dsimp only [Gen.V, Gen.hostOps0]
  after_results
  rfl

theorem main_v18_at (c : Dev nD) (u : Fin 1) (cc : Fin 2048) :
    (V m c main_v18 : S1x2048.Idx → EReal) (ix2 u cc) = (m ((c : Thread nD τ).loc main_arg13) : S2048.Idx → EReal) (ix1 cc) := by
  rw [main_v18_eq]
  exact shapeCast_a_1a_apply _ _ u cc

end Cert.KernelIdeal.Staged

end
-- ==== Proof.PointBlocks.lean ====
/-
  A grid point's blocks, read in the arguments.

  The grid has 8 × 16 points.  At a point the output block is 512 batch rows by 256 hidden columns; write `rowOf t p`
  and `colOf t q` for the batch row and the hidden column of its entry `(p, q)`.  Then at that point
    • the `x` and `h` blocks are rows `rowOf t ·` of `x` and `h`, every column;
    • each staged weight block is every row, columns `colOf t ·`, of the transposed weight — row `colOf t q` of the weight;
    • each staged bias block is entries `colOf t ·` of the bias;
    • the second read of the `h` block starts at the block's own column offset, so its entry `(p, q)` is
      `h[rowOf t p, colOf t q]`.
  The relations between the windows' block indices are decided once over the 128 points.
-/
import proofs.«135165_j64793876628224_2_alg».proof.Proof.Gen.KernelIdeal.Frame
import proofs.«135165_j64793876628224_2_alg».proof.Proof.Staged
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Point

open Cert.KernelIdeal Cert.KernelIdeal.Gen

/-! ## The block indices, decided over the grid -/

/-- The output's block index stays inside the 16 × 8 blocks of the result. -/
theorem idx_out : ∀ t : Fin cfg0.N, win0_14.index t (0 : Fin 2) ≤ 15 ∧ win0_14.index t (1 : Fin 2) ≤ 7 :=
  (by decide +kernel : ∀ t : Fin grid0.N, _)

/-- The `x` and `h` blocks move with the output's rows and span every column. -/
theorem idx_x : ∀ t : Fin cfg0.N, win0_0.index t (0 : Fin 2) = win0_14.index t (0 : Fin 2) ∧ win0_0.index t (1 : Fin 2) = 0 :=
  (by decide +kernel : ∀ t : Fin grid0.N, _)
theorem idx_h : ∀ t : Fin cfg0.N, win0_1.index t (0 : Fin 2) = win0_14.index t (0 : Fin 2) ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = win0_14.index t (1 : Fin 2) :=
  (by decide +kernel : ∀ t : Fin grid0.N, _)
theorem idx_w3 : ∀ t : Fin cfg0.N, win0_3.index t (0 : Fin 2) = 0 ∧ win0_3.index t (1 : Fin 2) = win0_14.index t (1 : Fin 2) :=
  (by decide +kernel : ∀ t : Fin grid0.N, _)
theorem idx_w4 : ∀ t : Fin cfg0.N, win0_4.index t (0 : Fin 2) = 0 ∧ win0_4.index t (1 : Fin 2) = win0_14.index t (1 : Fin 2) :=
  (by decide +kernel : ∀ t : Fin grid0.N, _)
theorem idx_w5 : ∀ t : Fin cfg0.N, win0_5.index t (0 : Fin 2) = 0 ∧ win0_5.index t (1 : Fin 2) = win0_14.index t (1 : Fin 2) :=
  (by decide +kernel : ∀ t : Fin grid0.N, _)
theorem idx_w6 : ∀ t : Fin cfg0.N, win0_6.index t (0 : Fin 2) = 0 ∧ win0_6.index t (1 : Fin 2) = win0_14.index t (1 : Fin 2) :=
  (by decide +kernel : ∀ t : Fin grid0.N, _)
theorem idx_w7 : ∀ t : Fin cfg0.N, win0_7.index t (0 : Fin 2) = 0 ∧ win0_7.index t (1 : Fin 2) = win0_14.index t (1 : Fin 2) :=
  (by decide +kernel : ∀ t : Fin grid0.N, _)
theorem idx_w8 : ∀ t : Fin cfg0.N, win0_8.index t (0 : Fin 2) = 0 ∧ win0_8.index t (1 : Fin 2) = win0_14.index t (1 : Fin 2) :=
  (by decide +kernel : ∀ t : Fin grid0.N, _)
theorem idx_w9 : ∀ t : Fin cfg0.N, win0_9.index t (0 : Fin 2) = 0 ∧ win0_9.index t (1 : Fin 2) = win0_14.index t (1 : Fin 2) :=
  (by decide +kernel : ∀ t : Fin grid0.N, _)
theorem idx_w10 : ∀ t : Fin cfg0.N, win0_10.index t (0 : Fin 2) = 0 ∧ win0_10.index t (1 : Fin 2) = win0_14.index t (1 : Fin 2) :=
  (by decide +kernel : ∀ t : Fin grid0.N, _)
theorem idx_w11 : ∀ t : Fin cfg0.N, win0_11.index t (0 : Fin 2) = 0 ∧ win0_11.index t (1 : Fin 2) = win0_14.index t (1 : Fin 2) :=
  (by decide +kernel : ∀ t : Fin grid0.N, _)
theorem idx_w12 : ∀ t : Fin cfg0.N, win0_12.index t (0 : Fin 2) = 0 ∧ win0_12.index t (1 : Fin 2) = win0_14.index t (1 : Fin 2) :=
  (by decide +kernel : ∀ t : Fin grid0.N, _)
theorem idx_w13 : ∀ t : Fin cfg0.N, win0_13.index t (0 : Fin 2) = 0 ∧ win0_13.index t (1 : Fin 2) = win0_14.index t (1 : Fin 2) :=
  (by decide +kernel : ∀ t : Fin grid0.N, _)

/-- The column window of the second read of the `h` block starts at the output block's first column. -/
theorem off_h : ∀ t : Fin cfg0.N, k0_off1 (grid0.coords t) (0 : Fin 2) = 0 ∧ k0_off1 (grid0.coords t) (1 : Fin 2) = win0_14.index t (1 : Fin 2) * 256 :=
  (by decide +kernel : ∀ t : Fin grid0.N, _)

/-- Every block of the result is some point's. -/
theorem idx_onto : ∀ (q0 : Fin 16) (q1 : Fin 8), ∃ t : Fin cfg0.N, win0_14.index t = ![q0.val, q1.val] :=
  (by decide +kernel : ∀ (q0 : Fin 16) (q1 : Fin 8), ∃ t : Fin grid0.N, win0_14.index t = ![q0.val, q1.val])

/-! ## Rows and columns of a point -/

/-- The batch row of row `p` of point `t`'s output block. -/
def rowOf (t : Fin cfg0.N) (p : Fin 512) : Fin 8192 :=
  ⟨win0_14.index t (0 : Fin 2) * 512 + p.val, by have := (idx_out t).1; have := p.isLt; omega⟩

/-- The hidden column of column `q` of point `t`'s output block. -/
def colOf (t : Fin cfg0.N) (q : Fin 256) : Fin 2048 :=
  ⟨win0_14.index t (1 : Fin 2) * 256 + q.val, by have := (idx_out t).2; have := q.isLt; omega⟩

/-- Entry `(p, q)` of the output block sits in the result at `(rowOf t p, colOf t q)`. -/
theorem emb_out (t : Fin cfg0.N) (p : Fin 512) (q : Fin 256) :
    ((cfg0.win 14).blk t).view.emb (ix2 p q : S512x256.Idx) = (ix2 (rowOf t p) (colOf t q) : S8192x2048.Idx) := by
  funext a; apply Fin.ext
  match a with
  | ⟨0, _⟩ => show win0_14.index t (0 : Fin 2) * 512 + 1 * p.val = win0_14.index t (0 : Fin 2) * 512 + p.val; omega
  | ⟨1, _⟩ => show win0_14.index t (1 : Fin 2) * 256 + 1 * q.val = win0_14.index t (1 : Fin 2) * 256 + q.val; omega

variable (m : (ℓ : Loc nD τ sig) → Buf (Elt Ideal) ℓ)

/-! ## The input blocks -/

/-- Row `p` of the `x` block is row `rowOf t p` of `x`. -/
theorem x_row (c : Dev nD) (t : Fin cfg0.N) (p : Fin 512) :
    (fun k : Fin 2048 => (iblk m c 0 t : Vec Ideal S512x2048 .bf16) (ix2 p k))
      = fun k : Fin 2048 => (m ((c : Thread nD τ).loc main_arg0) : S8192x2048.Idx → EReal) (ix2 (rowOf t p) k) := by
  funext k
  show (V m c main_v0 : S8192x2048.Idx → EReal) (((cfg0.win 0).blk t).view.emb (ix2 p k : S512x2048.Idx)) = _
  have e : ((cfg0.win 0).blk t).view.emb (ix2 p k : S512x2048.Idx) = (ix2 (rowOf t p) k : S8192x2048.Idx) := by
    obtain ⟨e0, e1⟩ := idx_x t
    funext a; apply Fin.ext
    match a with
    | ⟨0, _⟩ => show win0_0.index t (0 : Fin 2) * 512 + 1 * p.val = win0_14.index t (0 : Fin 2) * 512 + p.val; omega
    | ⟨1, _⟩ => show win0_0.index t (1 : Fin 2) * 2048 + 1 * k.val = k.val; omega
  rw [e]
  exact Staged.x_at m c _

/-- Row `p` of the `h` block is row `rowOf t p` of `h`. -/
theorem h_row (c : Dev nD) (t : Fin cfg0.N) (p : Fin 512) :
    (fun k : Fin 2048 => (iblk m c 1 t : Vec Ideal S512x2048 .f32) (ix2 p k))
      = fun k : Fin 2048 => (m ((c : Thread nD τ).loc main_arg1) : S8192x2048.Idx → EReal) (ix2 (rowOf t p) k) := by
  funext k
  show (V m c main_arg1 : S8192x2048.Idx → EReal) (((cfg0.win 1).blk t).view.emb (ix2 p k : S512x2048.Idx)) = _
  have e : ((cfg0.win 1).blk t).view.emb (ix2 p k : S512x2048.Idx) = (ix2 (rowOf t p) k : S8192x2048.Idx) := by
    obtain ⟨e0, e1⟩ := idx_h t
    funext a; apply Fin.ext
    match a with
    | ⟨0, _⟩ => show win0_1.index t (0 : Fin 2) * 512 + 1 * p.val = win0_14.index t (0 : Fin 2) * 512 + p.val; omega
    | ⟨1, _⟩ => show win0_1.index t (1 : Fin 2) * 2048 + 1 * k.val = k.val; omega
  rw [e]
  exact Staged.h_at m c _

/-- The second read of the `h` block, at `(p, q)`, is `h` at the output entry's own place. -/
theorem h_entry (c : Dev nD) (t : Fin cfg0.N) (p : Fin 512) (q : Fin 256) :
    View.ld (iblk m c 1 t : Vec Ideal S512x2048 .f32)
        (Rect.unit (s := S512x2048) (k0_off1 (grid0.coords t)) S512x256.size (k0_off1_inb (grid0.coords t))) (ix2 p q : S512x256.Idx)
      = (m ((c : Thread nD τ).loc main_arg1) : S8192x2048.Idx → EReal) (ix2 (rowOf t p) (colOf t q)) := by
  show (V m c main_arg1 : S8192x2048.Idx → EReal) (((cfg0.win 1).blk t).view.emb
      ((Rect.unit (s := S512x2048) (k0_off1 (grid0.coords t)) S512x256.size (k0_off1_inb (grid0.coords t))).idx (ix2 p q : S512x256.Idx))) = _
  have e : ((cfg0.win 1).blk t).view.emb
      ((Rect.unit (s := S512x2048) (k0_off1 (grid0.coords t)) S512x256.size (k0_off1_inb (grid0.coords t))).idx (ix2 p q : S512x256.Idx))
      = (ix2 (rowOf t p) (colOf t q) : S8192x2048.Idx) := by
    obtain ⟨e0, e1⟩ := idx_h t
    obtain ⟨o0, o1⟩ := off_h t
    funext a; apply Fin.ext
    match a with
    | ⟨0, _⟩ =>
      show win0_1.index t (0 : Fin 2) * 512 + 1 * (k0_off1 (grid0.coords t) (0 : Fin 2) + 1 * p.val) = win0_14.index t (0 : Fin 2) * 512 + p.val
      omega
    | ⟨1, _⟩ =>
      show win0_1.index t (1 : Fin 2) * 2048 + 1 * (k0_off1 (grid0.coords t) (1 : Fin 2) + 1 * q.val) = win0_14.index t (1 : Fin 2) * 256 + q.val
      omega
  rw [e]
  exact Staged.h_at m c _

/-- Column `q` of weight block 2 is row `colOf t q` of argument `main_arg2`. -/
theorem w2_col (c : Dev nD) (t : Fin cfg0.N) (q : Fin 256) :
    (fun k : Fin 2048 => (iblk m c 2 t : Vec Ideal S2048x256 .bf16) (ix2 k q))
      = fun k : Fin 2048 => (m ((c : Thread nD τ).loc main_arg2) : S2048x2048.Idx → EReal) (ix2 (colOf t q) k) := by
  funext k
  show (V m c main_v2 : S2048x2048.Idx → EReal) (((cfg0.win 2).blk t).view.emb (ix2 k q : S2048x256.Idx)) = _
  have e : ((cfg0.win 2).blk t).view.emb (ix2 k q : S2048x256.Idx) = (ix2 k (colOf t q) : S2048x2048.Idx) := by
    obtain ⟨e0, e1⟩ := idx_w2 t
    funext a; apply Fin.ext
    match a with
    | ⟨0, _⟩ => show win0_2.index t (0 : Fin 2) * 2048 + 1 * k.val = k.val; omega
    | ⟨1, _⟩ => show win0_2.index t (1 : Fin 2) * 256 + 1 * q.val = win0_14.index t (1 : Fin 2) * 256 + q.val; omega
  rw [e]
  exact Staged.main_v2_at m c k (colOf t q)

/-- Column `q` of weight block 3 is row `colOf t q` of argument `main_arg6`. -/
theorem w3_col (c : Dev nD) (t : Fin cfg0.N) (q : Fin 256) :
    (fun k : Fin 2048 => (iblk m c 3 t : Vec Ideal S2048x256 .bf16) (ix2 k q))
      = fun k : Fin 2048 => (m ((c : Thread nD τ).loc main_arg6) : S2048x2048.Idx → EReal) (ix2 (colOf t q) k) := by
  funext k
  show (V m c main_v4 : S2048x2048.Idx → EReal) (((cfg0.win 3).blk t).view.emb (ix2 k q : S2048x256.Idx)) = _
  have e : ((cfg0.win 3).blk t).view.emb (ix2 k q : S2048x256.Idx) = (ix2 k (colOf t q) : S2048x2048.Idx) := by
    obtain ⟨e0, e1⟩ := idx_w3 t
    funext a; apply Fin.ext
    match a with
    | ⟨0, _⟩ => show win0_3.index t (0 : Fin 2) * 2048 + 1 * k.val = k.val; omega
    | ⟨1, _⟩ => show win0_3.index t (1 : Fin 2) * 256 + 1 * q.val = win0_14.index t (1 : Fin 2) * 256 + q.val; omega
  rw [e]
  exact Staged.main_v4_at m c k (colOf t q)

/-- Column `q` of weight block 4 is row `colOf t q` of argument `main_arg10`. -/
theorem w4_col (c : Dev nD) (t : Fin cfg0.N) (q : Fin 256) :
    (fun k : Fin 2048 => (iblk m c 4 t : Vec Ideal S2048x256 .bf16) (ix2 k q))
      = fun k : Fin 2048 => (m ((c : Thread nD τ).loc main_arg10) : S2048x2048.Idx → EReal) (ix2 (colOf t q) k) := by
  funext k
  show (V m c main_v6 : S2048x2048.Idx → EReal) (((cfg0.win 4).blk t).view.emb (ix2 k q : S2048x256.Idx)) = _
  have e : ((cfg0.win 4).blk t).view.emb (ix2 k q : S2048x256.Idx) = (ix2 k (colOf t q) : S2048x2048.Idx) := by
    obtain ⟨e0, e1⟩ := idx_w4 t
    funext a; apply Fin.ext
    match a with
    | ⟨0, _⟩ => show win0_4.index t (0 : Fin 2) * 2048 + 1 * k.val = k.val; omega
    | ⟨1, _⟩ => show win0_4.index t (1 : Fin 2) * 256 + 1 * q.val = win0_14.index t (1 : Fin 2) * 256 + q.val; omega
  rw [e]
  exact Staged.main_v6_at m c k (colOf t q)

/-- Column `q` of weight block 5 is row `colOf t q` of argument `main_arg4`. -/
theorem w5_col (c : Dev nD) (t : Fin cfg0.N) (q : Fin 256) :
    (fun k : Fin 2048 => (iblk m c 5 t : Vec Ideal S2048x256 .bf16) (ix2 k q))
      = fun k : Fin 2048 => (m ((c : Thread nD τ).loc main_arg4) : S2048x2048.Idx → EReal) (ix2 (colOf t q) k) := by
  funext k
  show (V m c main_v8 : S2048x2048.Idx → EReal) (((cfg0.win 5).blk t).view.emb (ix2 k q : S2048x256.Idx)) = _
  have e : ((cfg0.win 5).blk t).view.emb (ix2 k q : S2048x256.Idx) = (ix2 k (colOf t q) : S2048x2048.Idx) := by
    obtain ⟨e0, e1⟩ := idx_w5 t
    funext a; apply Fin.ext
    match a with
    | ⟨0, _⟩ => show win0_5.index t (0 : Fin 2) * 2048 + 1 * k.val = k.val; omega
    | ⟨1, _⟩ => show win0_5.index t (1 : Fin 2) * 256 + 1 * q.val = win0_14.index t (1 : Fin 2) * 256 + q.val; omega
  rw [e]
  exact Staged.main_v8_at m c k (colOf t q)

/-- Column `q` of weight block 6 is row `colOf t q` of argument `main_arg8`. -/
theorem w6_col (c : Dev nD) (t : Fin cfg0.N) (q : Fin 256) :
    (fun k : Fin 2048 => (iblk m c 6 t : Vec Ideal S2048x256 .bf16) (ix2 k q))
      = fun k : Fin 2048 => (m ((c : Thread nD τ).loc main_arg8) : S2048x2048.Idx → EReal) (ix2 (colOf t q) k) := by
  funext k
  show (V m c main_v10 : S2048x2048.Idx → EReal) (((cfg0.win 6).blk t).view.emb (ix2 k q : S2048x256.Idx)) = _
  have e : ((cfg0.win 6).blk t).view.emb (ix2 k q : S2048x256.Idx) = (ix2 k (colOf t q) : S2048x2048.Idx) := by
    obtain ⟨e0, e1⟩ := idx_w6 t
    funext a; apply Fin.ext
    match a with
    | ⟨0, _⟩ => show win0_6.index t (0 : Fin 2) * 2048 + 1 * k.val = k.val; omega
    | ⟨1, _⟩ => show win0_6.index t (1 : Fin 2) * 256 + 1 * q.val = win0_14.index t (1 : Fin 2) * 256 + q.val; omega
  rw [e]
  exact Staged.main_v10_at m c k (colOf t q)

/-- Column `q` of weight block 7 is row `colOf t q` of argument `main_arg12`. -/
theorem w7_col (c : Dev nD) (t : Fin cfg0.N) (q : Fin 256) :
    (fun k : Fin 2048 => (iblk m c 7 t : Vec Ideal S2048x256 .bf16) (ix2 k q))
      = fun k : Fin 2048 => (m ((c : Thread nD τ).loc main_arg12) : S2048x2048.Idx → EReal) (ix2 (colOf t q) k) := by
  funext k
  show (V m c main_v12 : S2048x2048.Idx → EReal) (((cfg0.win 7).blk t).view.emb (ix2 k q : S2048x256.Idx)) = _
  have e : ((cfg0.win 7).blk t).view.emb (ix2 k q : S2048x256.Idx) = (ix2 k (colOf t q) : S2048x2048.Idx) := by
    obtain ⟨e0, e1⟩ := idx_w7 t
    funext a; apply Fin.ext
    match a with
    | ⟨0, _⟩ => show win0_7.index t (0 : Fin 2) * 2048 + 1 * k.val = k.val; omega
    | ⟨1, _⟩ => show win0_7.index t (1 : Fin 2) * 256 + 1 * q.val = win0_14.index t (1 : Fin 2) * 256 + q.val; omega
  rw [e]
  exact Staged.main_v12_at m c k (colOf t q)

/-- Entry `q` of bias block 8 is entry `colOf t q` of argument `main_arg3`. -/
theorem b8_entry (c : Dev nD) (t : Fin cfg0.N) (q : Fin 256) :
    (iblk m c 8 t : Vec Ideal S1x256 .f32) (ix2 (0 : Fin 1) q)
      = (m ((c : Thread nD τ).loc main_arg3) : S2048.Idx → EReal) (ix1 (colOf t q)) := by
  show (V m c main_v13 : S1x2048.Idx → EReal) (((cfg0.win 8).blk t).view.emb (ix2 (0 : Fin 1) q : S1x256.Idx)) = _
  have e : ((cfg0.win 8).blk t).view.emb (ix2 (0 : Fin 1) q : S1x256.Idx) = (ix2 (0 : Fin 1) (colOf t q) : S1x2048.Idx) := by
    obtain ⟨e0, e1⟩ := idx_w8 t
    funext a; apply Fin.ext
    match a with
    | ⟨0, _⟩ => show win0_8.index t (0 : Fin 2) * 1 + 1 * 0 = 0; omega
    | ⟨1, _⟩ => show win0_8.index t (1 : Fin 2) * 256 + 1 * q.val = win0_14.index t (1 : Fin 2) * 256 + q.val; omega
  rw [e]
  exact Staged.main_v13_at m c 0 (colOf t q)

/-- Entry `q` of bias block 9 is entry `colOf t q` of argument `main_arg7`. -/
theorem b9_entry (c : Dev nD) (t : Fin cfg0.N) (q : Fin 256) :
    (iblk m c 9 t : Vec Ideal S1x256 .f32) (ix2 (0 : Fin 1) q)
      = (m ((c : Thread nD τ).loc main_arg7) : S2048.Idx → EReal) (ix1 (colOf t q)) := by
  show (V m c main_v14 : S1x2048.Idx → EReal) (((cfg0.win 9).blk t).view.emb (ix2 (0 : Fin 1) q : S1x256.Idx)) = _
  have e : ((cfg0.win 9).blk t).view.emb (ix2 (0 : Fin 1) q : S1x256.Idx) = (ix2 (0 : Fin 1) (colOf t q) : S1x2048.Idx) := by
    obtain ⟨e0, e1⟩ := idx_w9 t
    funext a; apply Fin.ext
    match a with
    | ⟨0, _⟩ => show win0_9.index t (0 : Fin 2) * 1 + 1 * 0 = 0; omega
    | ⟨1, _⟩ => show win0_9.index t (1 : Fin 2) * 256 + 1 * q.val = win0_14.index t (1 : Fin 2) * 256 + q.val; omega
  rw [e]
  exact Staged.main_v14_at m c 0 (colOf t q)

/-- Entry `q` of bias block 10 is entry `colOf t q` of argument `main_arg11`. -/
theorem b10_entry (c : Dev nD) (t : Fin cfg0.N) (q : Fin 256) :
    (iblk m c 10 t : Vec Ideal S1x256 .f32) (ix2 (0 : Fin 1) q)
      = (m ((c : Thread nD τ).loc main_arg11) : S2048.Idx → EReal) (ix1 (colOf t q)) := by
  show (V m c main_v15 : S1x2048.Idx → EReal) (((cfg0.win 10).blk t).view.emb (ix2 (0 : Fin 1) q : S1x256.Idx)) = _
  have e : ((cfg0.win 10).blk t).view.emb (ix2 (0 : Fin 1) q : S1x256.Idx) = (ix2 (0 : Fin 1) (colOf t q) : S1x2048.Idx) := by
    obtain ⟨e0, e1⟩ := idx_w10 t
    funext a; apply Fin.ext
    match a with
    | ⟨0, _⟩ => show win0_10.index t (0 : Fin 2) * 1 + 1 * 0 = 0; omega
    | ⟨1, _⟩ => show win0_10.index t (1 : Fin 2) * 256 + 1 * q.val = win0_14.index t (1 : Fin 2) * 256 + q.val; omega
  rw [e]
  exact Staged.main_v15_at m c 0 (colOf t q)

/-- Entry `q` of bias block 11 is entry `colOf t q` of argument `main_arg5`. -/
theorem b11_entry (c : Dev nD) (t : Fin cfg0.N) (q : Fin 256) :
    (iblk m c 11 t : Vec Ideal S1x256 .f32) (ix2 (0 : Fin 1) q)
      = (m ((c : Thread nD τ).loc main_arg5) : S2048.Idx → EReal) (ix1 (colOf t q)) := by
  show (V m c main_v16 : S1x2048.Idx → EReal) (((cfg0.win 11).blk t).view.emb (ix2 (0 : Fin 1) q : S1x256.Idx)) = _
  have e : ((cfg0.win 11).blk t).view.emb (ix2 (0 : Fin 1) q : S1x256.Idx) = (ix2 (0 : Fin 1) (colOf t q) : S1x2048.Idx) := by
    obtain ⟨e0, e1⟩ := idx_w11 t
    funext a; apply Fin.ext
    match a with
    | ⟨0, _⟩ => show win0_11.index t (0 : Fin 2) * 1 + 1 * 0 = 0; omega
    | ⟨1, _⟩ => show win0_11.index t (1 : Fin 2) * 256 + 1 * q.val = win0_14.index t (1 : Fin 2) * 256 + q.val; omega
  rw [e]
  exact Staged.main_v16_at m c 0 (colOf t q)

/-- Entry `q` of bias block 12 is entry `colOf t q` of argument `main_arg9`. -/
theorem b12_entry (c : Dev nD) (t : Fin cfg0.N) (q : Fin 256) :
    (iblk m c 12 t : Vec Ideal S1x256 .f32) (ix2 (0 : Fin 1) q)
      = (m ((c : Thread nD τ).loc main_arg9) : S2048.Idx → EReal) (ix1 (colOf t q)) := by
  show (V m c main_v17 : S1x2048.Idx → EReal) (((cfg0.win 12).blk t).view.emb (ix2 (0 : Fin 1) q : S1x256.Idx)) = _
  have e : ((cfg0.win 12).blk t).view.emb (ix2 (0 : Fin 1) q : S1x256.Idx) = (ix2 (0 : Fin 1) (colOf t q) : S1x2048.Idx) := by
    obtain ⟨e0, e1⟩ := idx_w12 t
    funext a; apply Fin.ext
    match a with
    | ⟨0, _⟩ => show win0_12.index t (0 : Fin 2) * 1 + 1 * 0 = 0; omega
    | ⟨1, _⟩ => show win0_12.index t (1 : Fin 2) * 256 + 1 * q.val = win0_14.index t (1 : Fin 2) * 256 + q.val; omega
  rw [e]
  exact Staged.main_v17_at m c 0 (colOf t q)

/-- Entry `q` of bias block 13 is entry `colOf t q` of argument `main_arg13`. -/
theorem b13_entry (c : Dev nD) (t : Fin cfg0.N) (q : Fin 256) :
    (iblk m c 13 t : Vec Ideal S1x256 .f32) (ix2 (0 : Fin 1) q)
      = (m ((c : Thread nD τ).loc main_arg13) : S2048.Idx → EReal) (ix1 (colOf t q)) := by
  show (V m c main_v18 : S1x2048.Idx → EReal) (((cfg0.win 13).blk t).view.emb (ix2 (0 : Fin 1) q : S1x256.Idx)) = _
  have e : ((cfg0.win 13).blk t).view.emb (ix2 (0 : Fin 1) q : S1x256.Idx) = (ix2 (0 : Fin 1) (colOf t q) : S1x2048.Idx) := by
    obtain ⟨e0, e1⟩ := idx_w13 t
    funext a; apply Fin.ext
    match a with
    | ⟨0, _⟩ => show win0_13.index t (0 : Fin 2) * 1 + 1 * 0 = 0; omega
    | ⟨1, _⟩ => show win0_13.index t (1 : Fin 2) * 256 + 1 * q.val = win0_14.index t (1 : Fin 2) * 256 + q.val; omega
  rw [e]
  exact Staged.main_v18_at m c 0 (colOf t q)

end Cert.KernelIdeal.Point

end
-- ==== Proof.KernelValue.lean ====
/-
  The idealized kernel's result array is the cell.

  At every one of the 128 grid points the body's block, written back, is the matching block of the cell of the
  arguments: its entry `(p, q)` is the blend of six dense-layer entries taken from row `rowOf t p` of `x` and `h`,
  row `colOf t q` of each weight and entry `colOf t q` of each bias, and of `h[rowOf t p, colOf t q]`.  The 16 × 8
  output blocks tile the `8192 × 2048` result (the block holding entry `(r, s)` is block `(r / 512, s / 256)`), so
  the array after the run is the cell everywhere.
-/
import proofs.«135165_j64793876628224_2_alg».proof.Proof.Gen.KernelIdeal.Value
import proofs.«135165_j64793876628224_2_alg».proof.Proof.CellBlock
import proofs.«135165_j64793876628224_2_alg».proof.Proof.PointBlocks
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Gru Cert.KernelIdeal.Point

variable (m : (ℓ : Loc nD τ sig) → Buf (Elt Ideal) ℓ) (ρ : Dev nD → PrngReg)

/-- The cell of the arguments as core `c` holds them at launch. -/
abbrev cellOf (c : Dev nD) : Buf (Elt Ideal) ((c : Thread nD τ).loc main_v19) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What point `t` writes back is block `t` of the cell. -/
theorem flushed_eq (c : Dev nD) (t : Fin cfg0.N) :
    (dats m 0 c).flushed 14 t = ((cfg0.win 14).blk t).view.read (Elt Ideal) (cellOf m c) := by
  refine (Value.flushed14_A m c t).trans ?_
  rw [Cell.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)]
  refine funext fun (y : S512x256.Idx) => ?_
  obtain ⟨p, q, rfl⟩ : ∃ (p : Fin 512) (q : Fin 256), y = ix2 p q := ⟨y 0, y 1, eq_ix2 y⟩
  refine (Cell.pay1_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (View.ld (iblk m c 1 t : Vec Ideal S512x2048 .f32) (Rect.unit (s := S512x2048) (k0_off1 (grid0.coords t)) S512x256.size (k0_off1_inb (grid0.coords t)))) p q).trans ?_
  rw [x_row m c t p, h_row m c t p, w2_col m c t q, w3_col m c t q, w4_col m c t q, w5_col m c t q, w6_col m c t q, w7_col m c t q,
    b8_entry m c t q, b9_entry m c t q, b10_entry m c t q, b11_entry m c t q, b12_entry m c t q, b13_entry m c t q, h_entry m c t p q]
  show _ = cellOf m c (((cfg0.win 14).blk t).view.emb (ix2 p q : S512x256.Idx))
  rw [emb_out]
  rfl

/-- An index of the result is in point `t`'s block iff each coordinate is in the block's range on its axis. -/
theorem mem_blk (t : Fin cfg0.N) (i : S8192x2048.Idx) :
    i ∈ ((cfg0.win 14).blk t).view.set ↔ ∀ a : Fin 2, win0_14.index t a * S512x256.size a ≤ (i a).val ∧ (i a).val < win0_14.index t a * S512x256.size a + S512x256.size a := by
  show i ∈ ((View.whole main_v19).slice (win0_14.rect t)).set ↔ _
  rw [View.set_slice_whole, Rect.mem_set_unit]
  exact Iff.rfl

/-- Every entry of the result is in some point's block: entry `(r, s)` in block `(r / 512, s / 256)`. -/
theorem cover (i : S8192x2048.Idx) : ∃ t : Fin cfg0.N, (cfg0.win 14).flush t = true ∧ i ∈ ((cfg0.win 14).blk t).view.set := by
  have hi0 : (i 0).val < 8192 := (i 0).isLt
  have hi1 : (i 1).val < 2048 := (i 1).isLt
  obtain ⟨t, ht⟩ := idx_onto ⟨(i 0).val / 512, by omega⟩ ⟨(i 1).val / 256, by omega⟩
  have q0 : win0_14.index t (0 : Fin 2) = (i 0).val / 512 := congrFun ht 0
  have q1 : win0_14.index t (1 : Fin 2) = (i 1).val / 256 := congrFun ht 1
  refine ⟨t, flush0_14 t, ?_⟩
  rw [mem_blk]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 256 ≤ (i 1).val ∧ (i 1).val < win0_14.index t (1 : Fin 2) * 256 + 256; omega

/-- So the result array ends holding the cell. -/
theorem final (c : Dev nD) : (dats m 0 c).arrAt 14 cfg0.N = cellOf m c :=
  (dats m 0 c).arrAt_eq_of_cover 14 (cellOf m c) (fun t _ => flushed_eq m c t) cover

/-- The run, read: the result at the cell of the arguments, the arguments unchanged. -/
theorem run : θ_run defs (onTc (τ := τ) (main (F := Ideal))) ⟨m, fun _ => 0, ρ⟩ fun r => ∀ c : Dev nD,
      r.2.mem ((c : Thread nD τ).loc main_v19) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.RefValue.lean ====
/-
  The reference computes the cell.

  The reference stacks the three input-side weights into one `6144×2048` matrix and the three biases into one vector of
  6144 entries (and likewise on the hidden side), makes ONE product per side, and cuts the three gates' columns back
  out.  Column `c` of gate number `g` is column `2048·g + c` of the stacked projection, whose weight row is row `c` of the
  gate's own weight and whose bias entry is entry `c` of the gate's own bias: so each gate's entry is the dense layer
  `lin` of that gate's weight and bias.  The rest is pointwise, with σ spelt `1 / (1 + e^(−v))`.
-/
import proofs.«135165_j64793876628224_2_alg».proof.Proof.Gen.ReferenceIdeal.Read
import proofs.«135165_j64793876628224_2_alg».proof.Proof.GruSpec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Gru

/-! ## Where a gate's column sits in the stack -/

def s0 (c : Fin 2048) : Fin 6144 := ⟨c.val, by have := c.isLt; omega⟩
def s1 (c : Fin 2048) : Fin 6144 := ⟨2048 + c.val, by have := c.isLt; omega⟩
def s2 (c : Fin 2048) : Fin 6144 := ⟨4096 + c.val, by have := c.isLt; omega⟩

/-! ## The stacked weights and biases, piece by piece -/

theorem wi_0 (x2 x6 x10 : S2048x2048.Idx → EReal) (c k : Fin 2048) :
    val_main_v0 (F := Ideal) x2 x6 x10 (ix2 (s0 c) k) = x2 (ix2 c k) := by
  unfold val_main_v0
  refine concatenate_apply_piece 0 _ _ (ix2 (s0 c) k : S6144x2048.Idx) 0 (by show 0 < 3; omega) S2048x2048 x2 rfl rfl 0 rfl (ix2 c k) (fun b hb => ?_) (Nat.zero_add _)
  match b with
  | ⟨0, _⟩ => exact absurd rfl hb
  | ⟨1, _⟩ => rfl

theorem wi_1 (x2 x6 x10 : S2048x2048.Idx → EReal) (c k : Fin 2048) :
    val_main_v0 (F := Ideal) x2 x6 x10 (ix2 (s1 c) k) = x6 (ix2 c k) := by
  unfold val_main_v0
  refine concatenate_apply_piece 0 _ _ (ix2 (s1 c) k : S6144x2048.Idx) 1 (by show 1 < 3; omega) S2048x2048 x6 rfl rfl 2048 rfl (ix2 c k) (fun b hb => ?_) rfl
  match b with
  | ⟨0, _⟩ => exact absurd rfl hb
  | ⟨1, _⟩ => rfl

theorem wi_2 (x2 x6 x10 : S2048x2048.Idx → EReal) (c k : Fin 2048) :
    val_main_v0 (F := Ideal) x2 x6 x10 (ix2 (s2 c) k) = x10 (ix2 c k) := by
  unfold val_main_v0
  refine concatenate_apply_piece 0 _ _ (ix2 (s2 c) k : S6144x2048.Idx) 2 (by show 2 < 3; omega) S2048x2048 x10 rfl rfl 4096 rfl (ix2 c k) (fun b hb => ?_) rfl
  match b with
  | ⟨0, _⟩ => exact absurd rfl hb
  | ⟨1, _⟩ => rfl

theorem wh_0 (x4 x8 x12 : S2048x2048.Idx → EReal) (c k : Fin 2048) :
    val_main_v2 (F := Ideal) x4 x8 x12 (ix2 (s0 c) k) = x4 (ix2 c k) := by
  unfold val_main_v2
  refine concatenate_apply_piece 0 _ _ (ix2 (s0 c) k : S6144x2048.Idx) 0 (by show 0 < 3; omega) S2048x2048 x4 rfl rfl 0 rfl (ix2 c k) (fun b hb => ?_) (Nat.zero_add _)
  match b with
  | ⟨0, _⟩ => exact absurd rfl hb
  | ⟨1, _⟩ => rfl

theorem wh_1 (x4 x8 x12 : S2048x2048.Idx → EReal) (c k : Fin 2048) :
    val_main_v2 (F := Ideal) x4 x8 x12 (ix2 (s1 c) k) = x8 (ix2 c k) := by
  unfold val_main_v2
  refine concatenate_apply_piece 0 _ _ (ix2 (s1 c) k : S6144x2048.Idx) 1 (by show 1 < 3; omega) S2048x2048 x8 rfl rfl 2048 rfl (ix2 c k) (fun b hb => ?_) rfl
  match b with
  | ⟨0, _⟩ => exact absurd rfl hb
  | ⟨1, _⟩ => rfl

theorem wh_2 (x4 x8 x12 : S2048x2048.Idx → EReal) (c k : Fin 2048) :
    val_main_v2 (F := Ideal) x4 x8 x12 (ix2 (s2 c) k) = x12 (ix2 c k) := by
  unfold val_main_v2
  refine concatenate_apply_piece 0 _ _ (ix2 (s2 c) k : S6144x2048.Idx) 2 (by show 2 < 3; omega) S2048x2048 x12 rfl rfl 4096 rfl (ix2 c k) (fun b hb => ?_) rfl
  match b with
  | ⟨0, _⟩ => exact absurd rfl hb
  | ⟨1, _⟩ => rfl

theorem bi_0 (x3 x7 x11 : S2048.Idx → EReal) (c : Fin 2048) :
    val_main_v1 (F := Ideal) x3 x7 x11 (ix1 (s0 c)) = x3 (ix1 c) := by
  unfold val_main_v1
  refine concatenate_apply_piece 0 _ _ (ix1 (s0 c) : S6144.Idx) 0 (by show 0 < 3; omega) S2048 x3 rfl rfl 0 rfl (ix1 c) (fun b hb => ?_) (Nat.zero_add _)
  match b with
  | ⟨0, _⟩ => exact absurd rfl hb

theorem bi_1 (x3 x7 x11 : S2048.Idx → EReal) (c : Fin 2048) :
    val_main_v1 (F := Ideal) x3 x7 x11 (ix1 (s1 c)) = x7 (ix1 c) := by
  unfold val_main_v1
  refine concatenate_apply_piece 0 _ _ (ix1 (s1 c) : S6144.Idx) 1 (by show 1 < 3; omega) S2048 x7 rfl rfl 2048 rfl (ix1 c) (fun b hb => ?_) rfl
  match b with
  | ⟨0, _⟩ => exact absurd rfl hb

theorem bi_2 (x3 x7 x11 : S2048.Idx → EReal) (c : Fin 2048) :
    val_main_v1 (F := Ideal) x3 x7 x11 (ix1 (s2 c)) = x11 (ix1 c) := by
  unfold val_main_v1
  refine concatenate_apply_piece 0 _ _ (ix1 (s2 c) : S6144.Idx) 2 (by show 2 < 3; omega) S2048 x11 rfl rfl 4096 rfl (ix1 c) (fun b hb => ?_) rfl
  match b with
  | ⟨0, _⟩ => exact absurd rfl hb

theorem bh_0 (x5 x9 x13 : S2048.Idx → EReal) (c : Fin 2048) :
    val_main_v3 (F := Ideal) x5 x9 x13 (ix1 (s0 c)) = x5 (ix1 c) := by
  unfold val_main_v3
  refine concatenate_apply_piece 0 _ _ (ix1 (s0 c) : S6144.Idx) 0 (by show 0 < 3; omega) S2048 x5 rfl rfl 0 rfl (ix1 c) (fun b hb => ?_) (Nat.zero_add _)
  match b with
  | ⟨0, _⟩ => exact absurd rfl hb

theorem bh_1 (x5 x9 x13 : S2048.Idx → EReal) (c : Fin 2048) :
    val_main_v3 (F := Ideal) x5 x9 x13 (ix1 (s1 c)) = x9 (ix1 c) := by
  unfold val_main_v3
  refine concatenate_apply_piece 0 _ _ (ix1 (s1 c) : S6144.Idx) 1 (by show 1 < 3; omega) S2048 x9 rfl rfl 2048 rfl (ix1 c) (fun b hb => ?_) rfl
  match b with
  | ⟨0, _⟩ => exact absurd rfl hb

theorem bh_2 (x5 x9 x13 : S2048.Idx → EReal) (c : Fin 2048) :
    val_main_v3 (F := Ideal) x5 x9 x13 (ix1 (s2 c)) = x13 (ix1 c) := by
  unfold val_main_v3
  refine concatenate_apply_piece 0 _ _ (ix1 (s2 c) : S6144.Idx) 2 (by show 2 < 3; omega) S2048 x13 rfl rfl 4096 rfl (ix1 c) (fun b hb => ?_) rfl
  match b with
  | ⟨0, _⟩ => exact absurd rfl hb

/-! ## The stacked projections at an entry -/

/-- The input-side projection at `(p, cc)`: row `p` of `x` against row `cc` of the stacked weight, plus entry `cc` of the stacked bias. -/
theorem gi_at (x0 : S8192x2048.Idx → EReal) (x2 : S2048x2048.Idx → EReal) (x3 : S2048.Idx → EReal) (x6 : S2048x2048.Idx → EReal) (x7 : S2048.Idx → EReal) (x10 : S2048x2048.Idx → EReal) (x11 : S2048.Idx → EReal) (p : Fin 8192) (cc : Fin 6144) :
    val_main_v8 (F := Ideal) x0 x2 x3 x6 x7 x10 x11 (ix2 p cc)
      = lin (fun k : Fin 2048 => x0 (ix2 p k)) (fun k => val_main_v0 (F := Ideal) x2 x6 x10 (ix2 cc k)) (val_main_v1 (F := Ideal) x3 x7 x11 (ix1 cc)) := by
  have el : ∀ k : Fin 2048, lidx_main_v5 (ix2 p cc) k = ix2 p k := fun k => funext fun a => Fin.ext (by
    match a with | ⟨0, _⟩ => rfl | ⟨1, _⟩ => rfl)
  have er : ∀ k : Fin 2048, idx_main_v4 (ridx_main_v5 (ix2 p cc) k) = ix2 cc k := fun k => funext fun a => Fin.ext (by
    match a with | ⟨0, _⟩ => rfl | ⟨1, _⟩ => rfl)
  have eb : idx_main_v6 (idx_main_v7 (ix2 p cc)) = ix1 cc := funext fun a => Fin.ext (by
    match a with | ⟨0, _⟩ => rfl)
  rw [val_main_v8_apply, val_main_v5_apply, val_main_v7_apply, val_main_v6_apply, eb]
  simp only [val_main_v4_apply, el, er]
  rfl

/-- The hidden-side projection at `(p, cc)`. -/
theorem gh_at (x1 : S8192x2048.Idx → EReal) (x4 : S2048x2048.Idx → EReal) (x5 : S2048.Idx → EReal) (x8 : S2048x2048.Idx → EReal) (x9 : S2048.Idx → EReal) (x12 : S2048x2048.Idx → EReal) (x13 : S2048.Idx → EReal) (p : Fin 8192) (cc : Fin 6144) :
    val_main_v13 (F := Ideal) x1 x4 x5 x8 x9 x12 x13 (ix2 p cc)
      = lin (fun k : Fin 2048 => x1 (ix2 p k)) (fun k => val_main_v2 (F := Ideal) x4 x8 x12 (ix2 cc k)) (val_main_v3 (F := Ideal) x5 x9 x13 (ix1 cc)) := by
  have el : ∀ k : Fin 2048, lidx_main_v10 (ix2 p cc) k = ix2 p k := fun k => funext fun a => Fin.ext (by
    match a with | ⟨0, _⟩ => rfl | ⟨1, _⟩ => rfl)
  have er : ∀ k : Fin 2048, idx_main_v9 (ridx_main_v10 (ix2 p cc) k) = ix2 cc k := fun k => funext fun a => Fin.ext (by
    match a with | ⟨0, _⟩ => rfl | ⟨1, _⟩ => rfl)
  have eb : idx_main_v11 (idx_main_v12 (ix2 p cc)) = ix1 cc := funext fun a => Fin.ext (by
    match a with | ⟨0, _⟩ => rfl)
  rw [val_main_v13_apply, val_main_v10_apply, val_main_v12_apply, val_main_v11_apply, eb]
  simp only [val_main_v9_apply, el, er]
  rfl

/-! ## The six gate entries -/

theorem gate_v14 (x0 : S8192x2048.Idx → EReal) (x2 : S2048x2048.Idx → EReal) (x3 : S2048.Idx → EReal) (x6 : S2048x2048.Idx → EReal) (x7 : S2048.Idx → EReal) (x10 : S2048x2048.Idx → EReal) (x11 : S2048.Idx → EReal) (p : Fin 8192) (c : Fin 2048) :
    val_main_v14 (F := Ideal) x0 x2 x3 x6 x7 x10 x11 (ix2 p c) = lin (fun k : Fin 2048 => x0 (ix2 p k)) (fun k => x2 (ix2 c k)) (x3 (ix1 c)) := by
  have e : idx_main_v14 (ix2 p c) = ix2 p (s0 c) := funext fun a => Fin.ext (by
    match a with | ⟨0, _⟩ => rfl | ⟨1, _⟩ => rfl)
  rw [val_main_v14_apply, e, gi_at, bi_0]
  simp only [wi_0]

theorem gate_v15 (x0 : S8192x2048.Idx → EReal) (x2 : S2048x2048.Idx → EReal) (x3 : S2048.Idx → EReal) (x6 : S2048x2048.Idx → EReal) (x7 : S2048.Idx → EReal) (x10 : S2048x2048.Idx → EReal) (x11 : S2048.Idx → EReal) (p : Fin 8192) (c : Fin 2048) :
    val_main_v15 (F := Ideal) x0 x2 x3 x6 x7 x10 x11 (ix2 p c) = lin (fun k : Fin 2048 => x0 (ix2 p k)) (fun k => x6 (ix2 c k)) (x7 (ix1 c)) := by
  have e : idx_main_v15 (ix2 p c) = ix2 p (s1 c) := funext fun a => Fin.ext (by
    match a with | ⟨0, _⟩ => rfl | ⟨1, _⟩ => rfl)
  rw [val_main_v15_apply, e, gi_at, bi_1]
  simp only [wi_1]

theorem gate_v16 (x0 : S8192x2048.Idx → EReal) (x2 : S2048x2048.Idx → EReal) (x3 : S2048.Idx → EReal) (x6 : S2048x2048.Idx → EReal) (x7 : S2048.Idx → EReal) (x10 : S2048x2048.Idx → EReal) (x11 : S2048.Idx → EReal) (p : Fin 8192) (c : Fin 2048) :
    val_main_v16 (F := Ideal) x0 x2 x3 x6 x7 x10 x11 (ix2 p c) = lin (fun k : Fin 2048 => x0 (ix2 p k)) (fun k => x10 (ix2 c k)) (x11 (ix1 c)) := by
  have e : idx_main_v16 (ix2 p c) = ix2 p (s2 c) := funext fun a => Fin.ext (by
    match a with | ⟨0, _⟩ => rfl | ⟨1, _⟩ => rfl)
  rw [val_main_v16_apply, e, gi_at, bi_2]
  simp only [wi_2]

theorem gate_v17 (x1 : S8192x2048.Idx → EReal) (x4 : S2048x2048.Idx → EReal) (x5 : S2048.Idx → EReal) (x8 : S2048x2048.Idx → EReal) (x9 : S2048.Idx → EReal) (x12 : S2048x2048.Idx → EReal) (x13 : S2048.Idx → EReal) (p : Fin 8192) (c : Fin 2048) :
    val_main_v17 (F := Ideal) x1 x4 x5 x8 x9 x12 x13 (ix2 p c) = lin (fun k : Fin 2048 => x1 (ix2 p k)) (fun k => x4 (ix2 c k)) (x5 (ix1 c)) := by
  have e : idx_main_v17 (ix2 p c) = ix2 p (s0 c) := funext fun a => Fin.ext (by
    match a with | ⟨0, _⟩ => rfl | ⟨1, _⟩ => rfl)
  rw [val_main_v17_apply, e, gh_at, bh_0]
  simp only [wh_0]

theorem gate_v18 (x1 : S8192x2048.Idx → EReal) (x4 : S2048x2048.Idx → EReal) (x5 : S2048.Idx → EReal) (x8 : S2048x2048.Idx → EReal) (x9 : S2048.Idx → EReal) (x12 : S2048x2048.Idx → EReal) (x13 : S2048.Idx → EReal) (p : Fin 8192) (c : Fin 2048) :
    val_main_v18 (F := Ideal) x1 x4 x5 x8 x9 x12 x13 (ix2 p c) = lin (fun k : Fin 2048 => x1 (ix2 p k)) (fun k => x8 (ix2 c k)) (x9 (ix1 c)) := by
  have e : idx_main_v18 (ix2 p c) = ix2 p (s1 c) := funext fun a => Fin.ext (by
    match a with | ⟨0, _⟩ => rfl | ⟨1, _⟩ => rfl)
  rw [val_main_v18_apply, e, gh_at, bh_1]
  simp only [wh_1]

theorem gate_v19 (x1 : S8192x2048.Idx → EReal) (x4 : S2048x2048.Idx → EReal) (x5 : S2048.Idx → EReal) (x8 : S2048x2048.Idx → EReal) (x9 : S2048.Idx → EReal) (x12 : S2048x2048.Idx → EReal) (x13 : S2048.Idx → EReal) (p : Fin 8192) (c : Fin 2048) :
    val_main_v19 (F := Ideal) x1 x4 x5 x8 x9 x12 x13 (ix2 p c) = lin (fun k : Fin 2048 => x1 (ix2 p k)) (fun k => x12 (ix2 c k)) (x13 (ix1 c)) := by
  have e : idx_main_v19 (ix2 p c) = ix2 p (s2 c) := funext fun a => Fin.ext (by
    match a with | ⟨0, _⟩ => rfl | ⟨1, _⟩ => rfl)
  rw [val_main_v19_apply, e, gh_at, bh_2]
  simp only [wh_2]

/-! ## The pointwise tail, and the whole result -/

/-- From the six gate entries on, the reference is pointwise: the blend, with σ written out. -/
theorem tail_at (x0 x1 : S8192x2048.Idx → EReal) (x2 : S2048x2048.Idx → EReal) (x3 : S2048.Idx → EReal) (x4 : S2048x2048.Idx → EReal) (x5 : S2048.Idx → EReal) (x6 : S2048x2048.Idx → EReal) (x7 : S2048.Idx → EReal) (x8 : S2048x2048.Idx → EReal) (x9 : S2048.Idx → EReal) (x10 : S2048x2048.Idx → EReal) (x11 : S2048.Idx → EReal) (x12 : S2048x2048.Idx → EReal) (x13 : S2048.Idx → EReal) (i : S8192x2048.Idx) :
    val_main_v41 (F := Ideal) x0 x1 x2 x3 x4 x5 x6 x7 x8 x9 x10 x11 x12 x13 i
      = blend (val_main_v14 (F := Ideal) x0 x2 x3 x6 x7 x10 x11 i) (val_main_v15 (F := Ideal) x0 x2 x3 x6 x7 x10 x11 i) (val_main_v16 (F := Ideal) x0 x2 x3 x6 x7 x10 x11 i)
          (val_main_v17 (F := Ideal) x1 x4 x5 x8 x9 x12 x13 i) (val_main_v18 (F := Ideal) x1 x4 x5 x8 x9 x12 x13 i) (val_main_v19 (F := Ideal) x1 x4 x5 x8 x9 x12 x13 i) (x1 i) := by
  simp only [val_main_v41_apply, val_main_v40_apply, val_main_v39_apply, val_main_v38_apply, val_main_v37_apply, val_main_cst_3_apply,
    val_main_v36_apply, val_main_v35_apply, val_main_v34_apply, val_main_v33_apply, val_main_v32_apply, val_main_cst_2_apply,
    val_main_v31_apply, val_main_v30_apply, val_main_cst_1_apply, val_main_v29_apply, val_main_v28_apply, val_main_v27_apply,
    val_main_v26_apply, val_main_v25_apply, val_main_cst_0_apply, val_main_v24_apply, val_main_v23_apply, val_main_cst_apply,
    val_main_v22_apply, val_main_v21_apply, val_main_v20_apply]
  generalize val_main_v14 (F := Ideal) x0 x2 x3 x6 x7 x10 x11 i = a14
  generalize val_main_v15 (F := Ideal) x0 x2 x3 x6 x7 x10 x11 i = a15
  generalize val_main_v16 (F := Ideal) x0 x2 x3 x6 x7 x10 x11 i = a16
  generalize val_main_v17 (F := Ideal) x1 x4 x5 x8 x9 x12 x13 i = a17
  generalize val_main_v18 (F := Ideal) x1 x4 x5 x8 x9 x12 x13 i = a18
  generalize val_main_v19 (F := Ideal) x1 x4 x5 x8 x9 x12 x13 i = a19
  show (one - Ideal.div one (one + Ideal.exp (-(a15 + a18)))) * Ideal.tanh (a16 + Ideal.div one (one + Ideal.exp (-(a14 + a17))) * a19)
      + Ideal.div one (one + Ideal.exp (-(a15 + a18))) * x1 i = _
  rw [sigmoid_expanded, sigmoid_expanded]
  rfl

/-- The reference's result is the cell, entry by entry. -/
theorem result_eq (x0 x1 : S8192x2048.Idx → EReal) (x2 : S2048x2048.Idx → EReal) (x3 : S2048.Idx → EReal) (x4 : S2048x2048.Idx → EReal) (x5 : S2048.Idx → EReal) (x6 : S2048x2048.Idx → EReal) (x7 : S2048.Idx → EReal) (x8 : S2048x2048.Idx → EReal) (x9 : S2048.Idx → EReal) (x10 : S2048x2048.Idx → EReal) (x11 : S2048.Idx → EReal) (x12 : S2048x2048.Idx → EReal) (x13 : S2048.Idx → EReal) :
    val_main_v41 (F := Ideal) x0 x1 x2 x3 x4 x5 x6 x7 x8 x9 x10 x11 x12 x13 = G x0 x1 x2 x3 x4 x5 x6 x7 x8 x9 x10 x11 x12 x13 := by
  funext i
  obtain ⟨p, c, rfl⟩ : ∃ (p : Fin 8192) (c : Fin 2048), i = ix2 p c := ⟨i 0, i 1, eq_ix2 i⟩
  rw [tail_at, gate_v14, gate_v15, gate_v16, gate_v17, gate_v18, gate_v19, G_ix2]
  rfl

end Cert.ReferenceIdeal.RefValue

end
-- ==== Proof.lean ====
/-
  A fused gated recurrent cell against its plain reference.

  Both programs compute, for batch row `p` and hidden column `c`,
      r = σ(x[p,·]·W_ir[c,·] + b_ir[c] + h[p,·]·W_hr[c,·] + b_hr[c]),   z likewise with W_iz, b_iz, W_hz, b_hz,
      n = tanh(x[p,·]·W_in[c,·] + b_in[c] + r · (h[p,·]·W_hn[c,·] + b_hn[c])),
      h'[p,c] = (1 − z) · n + z · h[p,c].
  The kernel tiles the result into 16 × 8 blocks and, per block, multiplies row blocks of `x` and `h` by column blocks of the
  transposed weights; the reference stacks the three weights of a side, multiplies once, and slices the gates back out.
  On the extended reals a change of float format is the identity, a tiled sum is the sum, and the kernel's logistic
  operation is, by definition, the reference's `1 / (1 + e^(−v))` — at the infinities too — so the two results are the
  same function of the arguments (`Cert.Gru.G`), entry by entry, with no finiteness needed: the precondition is never opened.

  Modules: GruSpec (the cell and the dense layer, program-free), CellBlock (one grid point's stored block at an entry),
  Staged (the arrays the region stages, in the arguments), PointBlocks (a point's blocks as rows and columns of the
  arguments), KernelValue (the blocks tile the result), RefValue (the reference is the cell).
  The idealization rewrote nothing, so the preservation claim is `True`.
-/
import proofs.«135165_j64793876628224_2_alg».proof.Defs
import proofs.«135165_j64793876628224_2_alg».proof.Proof.Gen.Kernel
import proofs.«135165_j64793876628224_2_alg».proof.Proof.Gen.Kernel.Frame
import proofs.«135165_j64793876628224_2_alg».proof.Proof.Gen.KernelIdeal
import proofs.«135165_j64793876628224_2_alg».proof.Proof.Gen.KernelIdeal.Frame
import proofs.«135165_j64793876628224_2_alg».proof.Proof.Gen.KernelIdeal.Value
import proofs.«135165_j64793876628224_2_alg».proof.Proof.Gen.ReferenceIdeal
import proofs.«135165_j64793876628224_2_alg».proof.Proof.Gen.ReferenceIdeal.Run
import proofs.«135165_j64793876628224_2_alg».proof.Proof.Gen.ReferenceIdeal.Read
import proofs.«135165_j64793876628224_2_alg».proof.Proof.Gen.Pre_finite_inputs
import proofs.«135165_j64793876628224_2_alg».proof.Proof.KernelValue
import proofs.«135165_j64793876628224_2_alg».proof.Proof.RefValue
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the fourteen arguments, the kernel's result array ends at the cell of its arguments, the
    reference's at the cell of its own, and those are the same arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.cellOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v41_eq, Cert.ReferenceIdeal.RefValue.result_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
